-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S16384 : Shape := ⟨1, ![16384]⟩
abbrev S512x2048 : Shape := ⟨2, ![512, 2048]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .bf16⟩
  | .hbm, ⟨3, _⟩ => ⟨S16384, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512, .f32⟩
  | .local _ .vmem, ⟨4, _⟩ => ⟨S512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512_S512_0 : ∀ a, (![0] : Fin 1 → Nat) a + S512.size a ≤ S512.size a
  h_S512 : 0 < S512.numel
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S_ : Shape := ⟨0, ![]⟩
abbrev S16384 : Shape := ⟨1, ![16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.Density.lean ====
/-
  The quantity both programs compute, as one function of the two argument arrays.

  For a batch of 16384 real vectors `x_b` of length 2048 and a 2048 × 2048 matrix `ρ`, entry `b` of the result is
      ‖x_b‖² · (x_bᵀ ρ x_b)  =  (∑ j, x_b[j] · x_b[j]) · (∑ j, (∑ k, x_b[k] · ρ[k, j]) · x_b[j]),
  read over the extended reals, where every sum and product is the exact one. The two sums are written in the order
  in which both programs form them (the row of `x ρ` first, then its product with the row of `x`), so no law of
  arithmetic beyond the meaning of a finite sum is needed to meet either side.
-/
import Idealize.ShloMosaic.PureOps.Ideal
import Idealize.ShloMosaic.Lib.ValueIdx

noncomputable section

namespace Cert.Density

open Idealize.ShloMosaic Idealize.ShloMosaic.ValueIdx

/-- The density of row `b`: the squared norm of row `b` of `x` times the quadratic form of `ρ` at that row. -/
def densityAt (x : (⟨2, ![16384, 2048]⟩ : Shape).Idx → EReal) (rho : (⟨2, ![2048, 2048]⟩ : Shape).Idx → EReal)
    (b : Fin 16384) : EReal :=
  (∑ j : Fin 2048, x (ix2 b j) * x (ix2 b j))
    * (∑ j : Fin 2048, (∑ k : Fin 2048, x (ix2 b k) * rho (ix2 k j)) * x (ix2 b j))

/-- The result array: entry `i` is the density of row `i`. -/
def density (x : (⟨2, ![16384, 2048]⟩ : Shape).Idx → EReal) (rho : (⟨2, ![2048, 2048]⟩ : Shape).Idx → EReal) :
    (⟨1, ![16384]⟩ : Shape).Idx → EReal :=
  fun i => densityAt x rho (i 0)

end Cert.Density

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«161372_j30897994728226_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.BlockDensity.lean ====
/-
  What one grid point computes, entry by entry.

  At a grid point the body holds a block `v0` of 512 rows of `x` and the whole matrix `v4`. It multiplies `v0`
  by itself and sums each row; it multiplies `v0` (read in a narrower float format, which over the extended reals
  is the same number) with `v4` into a zero accumulator, multiplies the product entry by entry with `v0` and sums
  each row; and it multiplies the two row sums. Over the extended reals a row sum is the plain sum over the row and a
  matrix product into zero is the plain sum over the contracted coordinate, so entry `r` of what the body stores is
      (∑ j, v0[r, j] · v0[r, j]) · (∑ j, (∑ k, v0[r, k] · v4[k, j]) · v0[r, j])
  (`stored_apply`). If row `r` of the block is row `b` of `x` and `v4` is `ρ`, this is the density of row `b`
  (`stored_eq_density`).
-/
import proofs.«161372_j30897994728226_2_alg».proof.Proof.Gen.KernelIdeal.Skeleton
import proofs.«161372_j30897994728226_2_alg».proof.Proof.Density
import proofs.«161372_j30897994728226_2_alg».proof.Proof.LibDotRows
import proofs.«161372_j30897994728226_2_alg».proof.Proof.LibRowSum
import Idealize.ShloMosaic.Lib.Pipeline.Value

noncomputable section

namespace Cert.KernelIdeal.BlockDensity

open Cert.KernelIdeal Cert.KernelIdeal.Gen Idealize.ShloMosaic Idealize.ShloMosaic.ValueIdx
open Cert.Density Cert.Hand

/-- The body's matrix product into a zero accumulator, read at entry `(p, q)`: the sum over the contracted
    coordinate `k` of the left operand at `(p, k)` times the right operand at `(k, q)`. -/
theorem product_apply (l : FVec Ideal S512x2048 .bf16) (r : FVec Ideal S2048x2048 .bf16) (p : Fin 512) (q : Fin 2048) :
    matmul dot_S512x2048_S2048x2048_S512x2048_1_0_0_1_n_n none l r (constant S512x2048 .f32 0x00000000#32) (ix2 p q)
      = ∑ k : Fin 2048, l (ix2 p k) * r (ix2 k q) := by
  refine (Ideal.matmul_constant_zero_apply dot_S512x2048_S2048x2048_S512x2048_1_0_0_1_n_n none l r (ix2 p q)).trans ?_
  dot_rows dot_S512x2048_S2048x2048_S512x2048_1_0_0_1_n_n S512x2048 S2048x2048 2048

/-- Entry `r` of what the body stores, from the block of `x` and the matrix it loaded. -/
theorem stored_apply (v0 : Vec Ideal S512x2048 .f32) (v4 : Vec Ideal S2048x2048 .bf16) (r : Fin 512) :
    k0_pay1 (F := Ideal) v0 v4 (ix1 r)
      = (∑ j : Fin 2048, v0 (ix2 r j) * v0 (ix2 r j))
        * (∑ j : Fin 2048, (∑ k : Fin 2048, v0 (ix2 r k) * v4 (ix2 k j)) * v0 (ix2 r j)) := by
  unfold k0_pay1
  refine congrArg₂ (fun a b : EReal => a * b) ?_ ?_
  · exact Cert.RowSum.multiReduction_add_row (mulf v0 v0) 0x00000000#32 reduces_S512x2048_S512 (.inl rfl) rfl r
  · refine (Cert.RowSum.multiReduction_add_row _ 0x00000000#32 reduces_S512x2048_S512 (.inl rfl) rfl r).trans ?_
    refine Finset.sum_congr rfl fun j _ => ?_
    refine congrArg (fun a : EReal => a * v0 (ix2 r j)) ?_
    refine (product_apply _ _ r j).trans ?_
    refine Finset.sum_congr rfl fun k _ => ?_
    exact congrArg (fun a : EReal => v0 (ix2 r k) * a)
      (congrFun (shapeCast_self v4 shapeCasts_S2048x2048_S2048x2048) (ix2 k j))

/-- When row `r` of the loaded block is row `b` of `x` and the loaded matrix is `ρ`, the body's stored entry `r` is
    the density of row `b`. -/
theorem stored_eq_density (v0 : Vec Ideal S512x2048 .f32) (v4 : Vec Ideal S2048x2048 .bf16)
    (x : (⟨2, ![16384, 2048]⟩ : Shape).Idx → EReal) (rho : (⟨2, ![2048, 2048]⟩ : Shape).Idx → EReal)
    (r : Fin 512) (b : Fin 16384)
    (hx : ∀ q : Fin 2048, v0 (ix2 r q) = x (ix2 b q))
    (hrho : ∀ k q : Fin 2048, v4 (ix2 k q) = rho (ix2 k q)) :
    k0_pay1 (F := Ideal) v0 v4 (ix1 r) = densityAt x rho b := by
  rw [stored_apply]
  unfold densityAt
  simp only [hx, hrho]

end Cert.KernelIdeal.BlockDensity

end
-- ==== Proof.KernelDensity.lean ====
/-
  The kernel's result array is the density.

  The grid has 32 points. Point `t` stages rows `512·t … 512·t + 511` of `x` and the whole matrix, which the host has
  rounded to a narrower float format before the region (over the extended reals the same numbers: `entry_matrix`), and
  writes back entries `512·t … 512·t + 511` of the result. By the reading of the body (`stored_eq_density`) entry `r` of
  what point `t` writes back is the density of row `512·t + r` of `x`, that is, the block written back is block `t`
  of the density (`written_back`). Every entry `i` of the result lies in the block of point `i / 512` (`covered`), so
  after the last point the result array is the density (`result_eq`), and the run ends there (`run`).
-/
import proofs.«161372_j30897994728226_2_alg».proof.Proof.Gen.KernelIdeal.Value
import proofs.«161372_j30897994728226_2_alg».proof.Proof.BlockDensity
import Idealize.ShloMosaic.Lib.Pipeline.Value
import Idealize.ShloMosaic.Lib.StableHlo.Run

noncomputable section

namespace Cert.KernelIdeal.KernelDensity

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)
open Cert.Density Cert.KernelIdeal.BlockDensity

variable (m : (ℓ : Loc nD τ sig) → Buf (Elt Ideal) ℓ) (ρ : Dev nD → PrngReg)

theorem zeros1 : (![0] : Fin 1 → Nat) = fun _ => 0 := funext fun a => by fin_cases a; rfl
theorem zeros2 : (![0, 0] : Fin 2 → Nat) = fun _ => 0 := funext fun a => by fin_cases a <;> rfl

/-- The matrix as the region finds it: the host's change of float format leaves every entry the number it was. -/
theorem entry_matrix (c : Dev nD) :
    (V m c main_v0 : S2048x2048.Idx → EReal) = m ((c : Thread nD τ).loc main_arg1) := by
  dsimp only [Gen.V, Gen.hostOps0]; after_results; rfl

/-- The block indices over the grid: the rows of `x` move with the result's entries, its columns and the matrix stay whole. -/
theorem block_indices : ∀ t : Fin cfg0.N, win0_0.index t (0 : Fin 2) = win0_2.index t (0 : Fin 1)
    ∧ win0_0.index t (1 : Fin 2) = 0 ∧ win0_1.index t (0 : Fin 2) = 0 ∧ win0_1.index t (1 : Fin 2) = 0 :=
  (by decide +kernel : ∀ t : Fin grid0.N, _)

/-- Every one of the 32 blocks of the result is some point's. -/
theorem block_onto : ∀ q : Fin 32, ∃ t : Fin cfg0.N, win0_2.index t = ![q.val] :=
  (by decide +kernel : ∀ q : Fin 32, ∃ t : Fin grid0.N, win0_2.index t = ![q.val])

/-- Row `r` of the block of `x` staged at point `t` is row `b` of `x` when `b` is `r` rows into the point's block. -/
theorem rows_apply (c : Dev nD) (t : Fin cfg0.N) (r : Fin 512) (q : Fin 2048) (b : Fin 16384)
    (hb : b.val = win0_2.index t (0 : Fin 1) * 512 + r.val) :
    (iblk m c 0 t : Vec Ideal S512x2048 .f32) (ix2 r q)
      = (m ((c : Thread nD τ).loc main_arg0) : S16384x2048.Idx → EReal) (ix2 b q) := by
  obtain ⟨e0, e1, -, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 512 + 1 * r.val = b.val; omega
  | ⟨1, _⟩ => show win0_0.index t (1 : Fin 2) * 2048 + 1 * q.val = q.val; omega

/-- The staged matrix is the argument matrix, entry by entry, at every point. -/
theorem matrix_apply (c : Dev nD) (t : Fin cfg0.N) (k q : Fin 2048) :
    (iblk m c 1 t : Vec Ideal S2048x2048 .bf16) (ix2 k q)
      = (m ((c : Thread nD τ).loc main_arg1) : S2048x2048.Idx → EReal) (ix2 k q) := by
  obtain ⟨-, -, e2, e3⟩ := block_indices t
  unfold iblk
  rw [View.read_apply]
  show (V m c main_v0 : S2048x2048.Idx → EReal) _ = _
  rw [entry_matrix]
  refine congrArg _ (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- What point `t` writes back is block `t` of the density of the argument arrays. -/
theorem written_back (c : Dev nD) (t : Fin cfg0.N) :
    (dats m 0 c).flushed 2 t = ((cfg0.win 2).blk t).view.read (Elt Ideal)
      (density (m ((c : Thread nD τ).loc main_arg0)) (m ((c : Thread nD τ).loc main_arg1))) := by
  rw [flushed2]
  unfold out0_2
  rw [View.canon_unit_zero zeros1]
  simp only [View.ld_unit_zero (S := S512x2048) zeros2, View.ld_unit_zero (S := S2048x2048) zeros2]
  funext j
  show k0_pay1 (F := Ideal) (iblk m c 0 t) (iblk m c 1 t) j
    = densityAt (m ((c : Thread nD τ).loc main_arg0)) (m ((c : Thread nD τ).loc main_arg1)) ((((cfg0.win 2).blk t).view.emb j) 0)
  refine (congrArg (k0_pay1 (F := Ideal) (iblk m c 0 t) (iblk m c 1 t)) (eq_ix1 j)).trans ?_
  exact stored_eq_density (iblk m c 0 t) (iblk m c 1 t) (m ((c : Thread nD τ).loc main_arg0)) (m ((c : Thread nD τ).loc main_arg1))
    (j 0) ((((cfg0.win 2).blk t).view.emb j) 0)
    (fun q => rows_apply m c t (j 0) q ((((cfg0.win 2).blk t).view.emb j) 0)
      (by show win0_2.index t (0 : Fin 1) * 512 + 1 * (j 0).val = win0_2.index t (0 : Fin 1) * 512 + (j 0).val; omega))
    (fun k q => matrix_apply m c t k q)

/-- An entry of the result is in point `t`'s block iff it is in the block's range. -/
theorem mem_block (t : Fin cfg0.N) (i : S16384.Idx) :
    i ∈ ((cfg0.win 2).blk t).view.set ↔ ∀ a : Fin 1, win0_2.index t a * S512.size a ≤ (i a).val ∧ (i a).val < win0_2.index t a * S512.size a + S512.size a := by
  show i ∈ ((View.whole main_v1).slice (win0_2.rect t)).set ↔ _
  rw [View.set_slice_whole, Rect.mem_set_unit]
  exact Iff.rfl

/-- Entry `i` of the result is written back by point `i / 512`. -/
theorem covered (i : S16384.Idx) :
    ∃ t : Fin cfg0.N, (cfg0.win 2).flush t = true ∧ i ∈ ((cfg0.win 2).blk t).view.set := by
  have hi : (i 0).val < 16384 := (i 0).isLt
  obtain ⟨t, ht⟩ := block_onto ⟨(i 0).val / 512, by omega⟩
  have q0 : win0_2.index t (0 : Fin 1) = (i 0).val / 512 := congrFun ht 0
  refine ⟨t, flush0_2 t, ?_⟩
  rw [mem_block]
  intro a
  match a with
  | ⟨0, _⟩ => show win0_2.index t (0 : Fin 1) * 512 ≤ (i 0).val ∧ (i 0).val < win0_2.index t (0 : Fin 1) * 512 + 512; omega

/-- After the last point the result array is the density of the argument arrays. -/
theorem result_eq (c : Dev nD) : (dats m 0 c).arrAt 2 cfg0.N
    = density (m ((c : Thread nD τ).loc main_arg0)) (m ((c : Thread nD τ).loc main_arg1)) :=
  (dats m 0 c).arrAt_eq_of_cover 2 _ (fun t _ => written_back m c t) covered

/-- Every weakly fair execution of the kernel's program ends with the result array at the density of the argument
    arrays and the argument arrays unchanged. -/
theorem run : θ_run defs (onTc (τ := τ) (main (F := Ideal))) ⟨m, fun _ => 0, ρ⟩ fun r => ∀ c : Dev nD,
      r.2.mem ((c : Thread nD τ).loc main_v1)
        = density (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.KernelDensity

end
-- ==== Proof.RefDensity.lean ====
/-
  The reference computes the density.

  The reference forms `x ρ` by one matrix product, multiplies it entry by entry with `x`, sums each row from the
  initial value zero, does the same with `x · x`, and multiplies the two row sums. Read at entry `i`, the matrix
  product is the sum over the contracted coordinate and each row sum is zero plus the sum over the row, so the
  result at `i` is the density at `i` once the zero is dropped.
-/
import proofs.«161372_j30897994728226_2_alg».proof.Proof.Gen.ReferenceIdeal.Read
import proofs.«161372_j30897994728226_2_alg».proof.Proof.Density

noncomputable section

namespace Cert.ReferenceIdeal.RefDensity

open Cert.ReferenceIdeal Cert.ReferenceIdeal.Gen Cert.ReferenceIdeal.Read Idealize.ShloMosaic Idealize.ShloMosaic.ValueIdx
open Cert.Density

/-- Row `r` of a row-summed array, with coordinate `k` on the summed axis, names entry `(r, k)`. -/
theorem idx_v4 (r : Fin 16384) (k : Fin 2048) : idx_main_v4 (ix1 r) k = ix2 r k :=
  funext fun a => by match a with | ⟨0, _⟩ => rfl | ⟨1, _⟩ => rfl

theorem idx_v2 (r : Fin 16384) (k : Fin 2048) : idx_main_v2 (ix1 r) k = ix2 r k :=
  funext fun a => by match a with | ⟨0, _⟩ => rfl | ⟨1, _⟩ => rfl

/-- The left operand of the product at output entry `(p, q)` and contracted coordinate `k` is read at `(p, k)`. -/
theorem lidx_v0 (p : Fin 16384) (q k : Fin 2048) : lidx_main_v0 (ix2 p q) k = ix2 p k :=
  funext fun a => by match a with | ⟨0, _⟩ => rfl | ⟨1, _⟩ => rfl

/-- The right operand is read at `(k, q)`. -/
theorem ridx_v0 (p : Fin 16384) (q k : Fin 2048) : ridx_main_v0 (ix2 p q) k = ix2 k q :=
  funext fun a => by match a with | ⟨0, _⟩ => rfl | ⟨1, _⟩ => rfl

/-- The reference's result, as a function of the two arguments, is the density. -/
theorem result_eq (x0 : (⟨S16384x2048, .f32⟩ : BufTy).Contents (Elt Ideal)) (x1 : (⟨S2048x2048, .f32⟩ : BufTy).Contents (Elt Ideal)) :
    val_main_v5 (F := Ideal) x0 x1 = density x0 x1 := by
  funext i
  obtain ⟨r, rfl⟩ : ∃ r : Fin 16384, i = ix1 r := ⟨i 0, eq_ix1 i⟩
  rw [val_main_v5_apply, val_main_v4_apply, val_main_v2_apply]
  simp only [idx_v4, idx_v2, val_main_v3_apply, val_main_v1_apply, val_main_v0_apply, lidx_v0, ridx_v0,
    val_main_cst_apply, val_main_cst_0_apply, Ideal.ofBits_def, Ideal.ofBits_zero_f32, zero_add, Ideal.mulf_def]
  rfl

end Cert.ReferenceIdeal.RefDensity

end
-- ==== Proof.lean ====
/-
  The kernel and its reference compute the same density.

  Both programs take a batch `x` of 16384 real vectors of length 2048 and a 2048 × 2048 matrix `ρ`, and return, for
  each vector `x_b`, the number ‖x_b‖² · (x_bᵀ ρ x_b). The reference does it with one matrix product `x ρ`, two row sums
  and a product. The kernel cuts the batch into 32 blocks of 512 rows; for each block it sums the squares of every row,
  multiplies the block with `ρ` (both read in a narrower float format, which over the extended reals changes nothing),
  sums the rows of the entrywise product with the block, and multiplies the two row sums.
  Over the extended reals every sum is exact, so both sides are, entry by entry,
      (∑ j, x[b, j] · x[b, j]) · (∑ j, (∑ k, x[b, k] · ρ[k, j]) · x[b, j])
  (`Cert.Density.density`): the reference by reading its operations at an entry (`RefDensity.result_eq`), the kernel by
  reading what one grid point stores (`BlockDensity.stored_eq_density`) and joining the 32 blocks
  (`KernelDensity.result_eq`). No law of arithmetic is used beyond dropping a zero summand, so the finiteness of the
  inputs is never needed. The idealized kernel is the kernel's own text (no rewrite was applied), so the claim about the
  idealization is empty; the three programs terminate without a fault and leave their arguments as they were.
-/
import proofs.«161372_j30897994728226_2_alg».proof.Defs
import proofs.«161372_j30897994728226_2_alg».proof.Proof.Gen.Kernel
import proofs.«161372_j30897994728226_2_alg».proof.Proof.Gen.Kernel.Frame
import proofs.«161372_j30897994728226_2_alg».proof.Proof.Gen.KernelIdeal
import proofs.«161372_j30897994728226_2_alg».proof.Proof.Gen.KernelIdeal.Frame
import proofs.«161372_j30897994728226_2_alg».proof.Proof.Gen.KernelIdeal.Value
import proofs.«161372_j30897994728226_2_alg».proof.Proof.Gen.ReferenceIdeal
import proofs.«161372_j30897994728226_2_alg».proof.Proof.Gen.ReferenceIdeal.Run
import proofs.«161372_j30897994728226_2_alg».proof.Proof.Gen.ReferenceIdeal.Read
import proofs.«161372_j30897994728226_2_alg».proof.Proof.Gen.Pre_finite_inputs
import proofs.«161372_j30897994728226_2_alg».proof.Proof.KernelDensity
import proofs.«161372_j30897994728226_2_alg».proof.Proof.RefDensity
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on `x` and `ρ`, both programs end with the density of `x` and `ρ`
    in their result arrays. -/
theorem algebraic : Cert.algebraic_KernelIdeal_ReferenceIdeal := by
  intro m ρ m' ρ' _ hagree
  refine ⟨fun c => Cert.Density.density (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KernelDensity.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefDensity.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
